-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S8192x8192 : Shape := ⟨2, ![8192, 8192]⟩
abbrev S8192 : Shape := ⟨1, ![8192]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x8192 .f32) (main_arg1 : FVec F S8192x8192 .f32) (main_arg2 : FVec F S8192 .f32) : IVec S_ 1 :=
  let main_v0 : FVec F S8x8192 .f32 := Host.absf main_arg0
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  let main_c : IVec S_ 1 := constantI S_ 1 1#1
  let main_v3 : IVec S_ 1 := (fun x v => Host.reduce IntOp.andi x v reducesTo_S8x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x8192 : Shape := ⟨2, ![8, 8192]⟩
abbrev S8192x8192 : Shape := ⟨2, ![8192, 8192]⟩
abbrev S8192 : Shape := ⟨1, ![8192]⟩
abbrev S1x8192 : Shape := ⟨2, ![1, 8192]⟩
abbrev S256x8192 : Shape := ⟨2, ![256, 8192]⟩
abbrev S1x256 : Shape := ⟨2, ![1, 256]⟩
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x8192, .f32⟩
  | .hbm, ⟨1, _⟩ => ⟨S8192x8192, .f32⟩
  | .hbm, ⟨2, _⟩ => ⟨S8192, .f32⟩
  | .hbm, ⟨3, _⟩ => ⟨S8x8192, .f32⟩
  | .hbm, ⟨4, _⟩ => ⟨S8x8192, .bf16⟩
  | .hbm, ⟨5, _⟩ => ⟨S1x8192, .f32⟩
  | .hbm, ⟨6, _⟩ => ⟨S8x8192, .f32⟩
  | .local _ .vmem, ⟨0, _⟩ => ⟨S8x8192, .bf16⟩
  | .local _ .vmem, ⟨1, _⟩ => ⟨S256x8192, .f32⟩
  | .local _ .vmem, ⟨2, _⟩ => ⟨S256x8192, .f32⟩
  | .local _ .vmem, ⟨3, _⟩ => ⟨S1x256, .f32⟩
  | .local _ .vmem, ⟨4, _⟩ => ⟨S1x256, .f32⟩
  | .local _ .vmem, ⟨5, _⟩ => ⟨S8x256, .f32⟩
  | .local _ .vmem, ⟨6, _⟩ => ⟨S8x256, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S8192_S1x8192 : S8192.ShapeCasts S1x8192
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  inb_S256x8192_S256x8192_0_0 : ∀ a, (![0, 0] : Fin 2 → Nat) a + S256x8192.size a ≤ S256x8192.size a
  h_S256x8192 : 0 < S256x8192.numel
  natLt_1_32 : 1 < 32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  dot_S8x8192_S256x8192_S8x256_1_1_0_0_n_n_wf : DotDims.WF S8x8192 S256x8192 S8x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S8x8192.size a
  hwx0_0 : ∀ i : grid0.Coords, EltTy.bits .bf16 = 32 ∨ (Rect.block (s := S8x8192) S8x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x8192.size a
  hwx0_3 : ∀ i : grid0.Coords, EltTy.bits .f32 = 32 ∨ (Rect.block (s := S8x8192) S8x256.size (cc0_transform_3 i) (hinb0_3 i)).WholeWords (EltTy.packing .f32)

variable [Facts₀]

def dot_S8x8192_S256x8192_S8x256_1_1_0_0_n_n : DotDims S8x8192 S256x8192 S8x256 where
  lhsContracting := [1]
  rhsContracting := [1]
  lhsNonContracting := [0]
  rhsNonContracting := [0]
  lhsBatch := []
  rhsBatch := []
  wf := dot_S8x8192_S256x8192_S8x256_1_1_0_0_n_n_wf

abbrev win0_0 : Pipeline.Window sig grid0 :=
  Pipeline.Window.ofSpec (Memref.whole main_v1) S8x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192 : Shape := ⟨2, ![8, 8192]⟩
abbrev S8192x8192 : Shape := ⟨2, ![8192, 8192]⟩
abbrev S8192 : Shape := ⟨1, ![8192]⟩
abbrev S1x8192 : Shape := ⟨2, ![1, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8192x8192, .f32⟩
  | .hbm, ⟨2, _⟩ => ⟨S8192, .f32⟩
  | .hbm, ⟨3, _⟩ => ⟨S8x8192, .f32⟩
  | .hbm, ⟨4, _⟩ => ⟨S8192x8192, .f32⟩
  | .hbm, ⟨5, _⟩ => ⟨S8x8192, .f32⟩
  | .hbm, ⟨6, _⟩ => ⟨S1x8192, .f32⟩
  | .hbm, ⟨7, _⟩ => ⟨S8x8192, .f32⟩
  | .hbm, ⟨8, _⟩ => ⟨S8x8192, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  dot_S8x8192_S8192x8192_S8x8192_1_1_0_0_n_n_wf : DotDims.WF S8x8192 S8192x8192 S8x8192 [1] [1] [0] [0] [] []

variable [Facts₀]

def dot_S8x8192_S8192x8192_S8x8192_1_1_0_0_n_n : DotDims S8x8192 S8192x8192 S8x8192 where
  lhsContracting := [1]
  rhsContracting := [1]
  lhsNonContracting := [0]
  rhsNonContracting := [0]
  lhsBatch := []
  rhsBatch := []
  wf := dot_S8x8192_S8192x8192_S8x8192_1_1_0_0_n_n_wf

class Facts : Prop extends Facts₀ where

variable [Facts]
-- ==== Proof.TernarySpec.lean ====
/-
  The function both programs compute, over the extended reals: a matrix–vector product of the SIGNS of the
  entries, plus a bias,
      out[p, o] = Σ_k sign(x[p, k]) · sign(w[o, k]) + b[o]      (p < 8, o < 8192, k < 8192),
  and the one scalar fact the two programs differ by: the weight's sign written as the difference of two
  comparison indicators, [0 < a] − [a < 0], is the sign of a at EVERY extended real (at +∞ it is 1 − 0, at −∞ it
  is 0 − 1), so no finiteness of the inputs is needed anywhere.
-/
import Idealize.ShloMosaic.PureOps
import Idealize.ShloMosaic.PureOps.Ideal
import Idealize.ShloMosaic.PureOps.Ideal.Laws
import Idealize.ShloMosaic.Lib.ValueIdx

noncomputable section

namespace Cert.TernaryGemv

open Idealize.ShloMosaic Idealize.ShloMosaic.ValueIdx

/-- One entry of the result: row `p` of `x` against row `o` of `w`, both through `sign`, summed over the shared
    column index, plus the bias at `o`. -/
def entry (x : (⟨2, ![8, 8192]⟩ : Shape).Idx → EReal) (w : (⟨2, ![8192, 8192]⟩ : Shape).Idx → EReal)
    (b : (⟨1, ![8192]⟩ : Shape).Idx → EReal) (p : Fin 8) (o : Fin 8192) : EReal :=
  (∑ k : Fin 8192, Ideal.sign (x (ix2 p k)) * Ideal.sign (w (ix2 o k))) + b (ix1 o)

/-- The whole result array, index by index. -/
def out (x : (⟨2, ![8, 8192]⟩ : Shape).Idx → EReal) (w : (⟨2, ![8192, 8192]⟩ : Shape).Idx → EReal)
    (b : (⟨1, ![8192]⟩ : Shape).Idx → EReal) : (⟨2, ![8, 8192]⟩ : Shape).Idx → EReal :=
  fun i => entry x w b (i 0) (i 1)

/-- The indicator of a true comparison, widened to 32 bits and read as a signed integer, is 1; of a false one, 0. -/
theorem indicator_true : ((BitVec.ofBool true).setWidth 32).toInt = 1 := by decide
theorem indicator_false : ((BitVec.ofBool false).setWidth 32).toInt = 0 := by decide

/-- [0 < a] − [a < 0] = sign a on the extended reals, the infinities included. -/
theorem gt_sub_lt_eq_sign (a : EReal) :
    ((((Ideal.cmp .ogt a 0).setWidth 32).toInt : ℝ) : EReal) - ((((Ideal.cmp .olt a 0).setWidth 32).toInt : ℝ) : EReal)
      = Ideal.sign a := by
  by_cases hlt : a < 0
  · have hgt : ¬ 0 < a := not_lt.mpr hlt.le
    simp [Ideal.cmp, hlt, hgt, indicator_true, indicator_false, Ideal.sign_of_neg hlt]
  · by_cases hgt : 0 < a
    · simp [Ideal.cmp, hlt, hgt, indicator_true, indicator_false, Ideal.sign_of_pos hgt]
    · have h0 : a = 0 := le_antisymm (not_lt.mp hgt) (not_lt.mp hlt)
      subst h0
      simp [Ideal.cmp, indicator_false, Ideal.sign_zero]

/-- The same fact for a whole vector as a kernel body writes it: each comparison against the zero splat, widened,
    converted to a float and narrowed (a change of format is the identity on the extended reals), then
    subtracted. -/
theorem ternary_apply {s : Shape} (v : FVec Ideal s .f32) (h1 : 1 < 32) (hb : FTy.bits .bf16 < FTy.bits .f32) (i : s.Idx) :
    subf (truncf .bf16 (sitofp (F := Ideal) .f32 (extui 32 (cmpf .ogt v (broadcast s (Scalar.ofBits (F := Ideal) .f32 0x00000000#32))) h1)) hb)
         (truncf .bf16 (sitofp (F := Ideal) .f32 (extui 32 (cmpf .olt v (broadcast s (Scalar.ofBits (F := Ideal) .f32 0x00000000#32))) h1)) hb) i
      = Ideal.sign (v i) := by
  show ((((Ideal.cmp .ogt (v i) (Ideal.ofBits .f32 0x00000000#32)).setWidth 32).toInt : ℝ) : EReal)
      - ((((Ideal.cmp .olt (v i) (Ideal.ofBits .f32 0x00000000#32)).setWidth 32).toInt : ℝ) : EReal) = _
  rw [Ideal.ofBits_zero_f32]
  exact gt_sub_lt_eq_sign _

end Cert.TernaryGemv

end
-- ==== Proof.RefIsSpec.lean ====
/-
  The reference computes the specification. Its six operations are: sign of x, sign of w, a dot_general
  contracting the second axis of both (so entry (p, o) pairs row p of sign x with row o of sign w), the bias
  broadcast to a row and then down the eight rows, and the sum. Read at an index (p, o) this is
  Σ_k sign(x[p, k]) · sign(w[o, k]) + b[o] — the specification's entry, term for term.
-/
import proofs.«101646_j2465311228218_2_alg».proof.Proof.Gen.ReferenceIdeal.Read
import proofs.«101646_j2465311228218_2_alg».proof.Proof.TernarySpec

noncomputable section

namespace Cert.ReferenceIdeal.RefValue

open Cert.ReferenceIdeal Cert.ReferenceIdeal.Gen Cert.ReferenceIdeal.Read
open Idealize.ShloMosaic Idealize.ShloMosaic.ValueIdx

/-- The left operand's index at output index `i` and contraction index `k` is (row of `i`, `k`). -/
theorem lidx_eq (i : S8x8192.Idx) (k : Fin 8192) : lidx_main_v2 i k = ix2 (i 0) k :=
  funext fun a => Fin.ext (by match a with | ⟨0, _⟩ => rfl | ⟨1, _⟩ => rfl)

/-- The right operand's index is (column of `i`, `k`): the contraction runs along the weight's second axis too. -/
theorem ridx_eq (i : S8x8192.Idx) (k : Fin 8192) : ridx_main_v2 i k = ix2 (i 1) k :=
  funext fun a => Fin.ext (by match a with | ⟨0, _⟩ => rfl | ⟨1, _⟩ => rfl)

/-- The bias, broadcast twice, is read at the column of `i`. -/
theorem bidx_eq (i : S8x8192.Idx) : idx_main_v3 (idx_main_v4 i) = ix1 (i 1) :=
  funext fun a => Fin.ext (by match a with | ⟨0, _⟩ => rfl)

/-- The reference's result, as a function of the three argument arrays, is the specification. -/
theorem result_eq (x : (⟨S8x8192, .f32⟩ : BufTy).Contents (Elt Ideal)) (w : (⟨S8192x8192, .f32⟩ : BufTy).Contents (Elt Ideal))
    (b : (⟨S8192, .f32⟩ : BufTy).Contents (Elt Ideal)) :
    val_main_v5 (F := Ideal) x w b = Cert.TernaryGemv.out x w b := by
  funext i
  rw [val_main_v5_apply, val_main_v2_apply, val_main_v4_apply, val_main_v3_apply]
  simp only [val_main_v0_apply, val_main_v1_apply, lidx_eq, ridx_eq, bidx_eq, Ideal.hostUnary_sign_def, Ideal.addf_def]
  rfl

end Cert.ReferenceIdeal.RefValue

end
-- ==== Proof.BodyValue.lean ====
/-
  What one grid point's body computes, read at an index of its 8 × 256 output block. The body takes the whole
  8 × 8192 block of pre-signed activations `xs`, a 256 × 8192 block `wb` of weight rows and a 1 × 256 block `bb` of
  the bias row; it forms [0 < wb] − [wb < 0] (the sign of each weight), multiplies `xs` against it contracting
  the second axis of both into a zero accumulator, and adds the bias row to every one of the eight rows. So at
  (p, q) the block holds Σ_k xs[p, k] · sign(wb[q, k]) + bb[0, q].
-/
import proofs.«101646_j2465311228218_2_alg».proof.Proof.Gen.KernelIdeal.Skeleton
import proofs.«101646_j2465311228218_2_alg».proof.Proof.TernarySpec
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen
open Idealize.ShloMosaic Idealize.ShloMosaic.ValueIdx

/-- The left operand's index at an output index `i` and a contraction index `κ`: its row is `i`'s row, -/
theorem lhs_row (i : S8x256.Idx) (κ : dot_S8x8192_S256x8192_S8x256_1_1_0_0_n_n.contr.Idx) :
    (dot_S8x8192_S256x8192_S8x256_1_1_0_0_n_n.lhsIdx i κ 0).val = (i 0).val := by
  unfold DotDims.lhsIdx
  rw [dif_neg (show ¬(0 : Fin S8x8192.rank) ∈ dot_S8x8192_S256x8192_S8x256_1_1_0_0_n_n.lhsBatch by decide),
    dif_pos (show (0 : Fin S8x8192.rank) ∈ dot_S8x8192_S256x8192_S8x256_1_1_0_0_n_n.lhsNonContracting by decide)]
  rfl
/-- and its column is the contraction index. -/
theorem lhs_col (i : S8x256.Idx) (κ : dot_S8x8192_S256x8192_S8x256_1_1_0_0_n_n.contr.Idx) :
    (dot_S8x8192_S256x8192_S8x256_1_1_0_0_n_n.lhsIdx i κ 1).val = (κ ⟨0, by decide⟩).val :=
  dot_S8x8192_S256x8192_S8x256_1_1_0_0_n_n.lhsIdx_val_of_single rfl i κ
/-- The right operand's row is `i`'s COLUMN (the weight block's row is the output's column), -/
theorem rhs_row (i : S8x256.Idx) (κ : dot_S8x8192_S256x8192_S8x256_1_1_0_0_n_n.contr.Idx) :
    (dot_S8x8192_S256x8192_S8x256_1_1_0_0_n_n.rhsIdx i κ 0).val = (i 1).val := by
  unfold DotDims.rhsIdx
  rw [dif_neg (show ¬(0 : Fin S256x8192.rank) ∈ dot_S8x8192_S256x8192_S8x256_1_1_0_0_n_n.rhsBatch by decide),
    dif_pos (show (0 : Fin S256x8192.rank) ∈ dot_S8x8192_S256x8192_S8x256_1_1_0_0_n_n.rhsNonContracting by decide)]
  rfl
/-- and its column is the contraction index again: both operands are contracted along their second axis. -/
theorem rhs_col (i : S8x256.Idx) (κ : dot_S8x8192_S256x8192_S8x256_1_1_0_0_n_n.contr.Idx) :
    (dot_S8x8192_S256x8192_S8x256_1_1_0_0_n_n.rhsIdx i κ 1).val = (κ ⟨0, by decide⟩).val :=
  dot_S8x8192_S256x8192_S8x256_1_1_0_0_n_n.rhsIdx_val_of_single rfl i κ

/-- With the one-axis contraction index re-indexed by `k < 8192`: the left index at (p, q), k is (p, k). -/
theorem lhs_idx (p : Fin 8) (q : Fin 256) (k : Fin 8192) :
    dot_S8x8192_S256x8192_S8x256_1_1_0_0_n_n.lhsIdx (ix2 p q)
        ((contrEquiv1 dot_S8x8192_S256x8192_S8x256_1_1_0_0_n_n 8192 rfl rfl).symm k) = ix2 p k :=
  funext fun a => Fin.ext (by
    match a with
    | ⟨0, _⟩ => exact lhs_row _ _
    | ⟨1, _⟩ => exact (lhs_col _ _).trans (contrEquiv1_symm_val dot_S8x8192_S256x8192_S8x256_1_1_0_0_n_n 8192 rfl rfl k))

/-- The right index is (q, k). -/
theorem rhs_idx (p : Fin 8) (q : Fin 256) (k : Fin 8192) :
    dot_S8x8192_S256x8192_S8x256_1_1_0_0_n_n.rhsIdx (ix2 p q)
        ((contrEquiv1 dot_S8x8192_S256x8192_S8x256_1_1_0_0_n_n 8192 rfl rfl).symm k) = ix2 q k :=
  funext fun a => Fin.ext (by
    match a with
    | ⟨0, _⟩ => exact rhs_row _ _
    | ⟨1, _⟩ => exact (rhs_col _ _).trans (contrEquiv1_symm_val dot_S8x8192_S256x8192_S8x256_1_1_0_0_n_n 8192 rfl rfl k))

/-- The product into the zero accumulator, at (p, q): the sum over k of left[p, k] · right[q, k]. -/
theorem product_apply (l : FVec Ideal S8x8192 .bf16) (r : FVec Ideal S256x8192 .bf16) (p : Fin 8) (q : Fin 256) :
    matmul dot_S8x8192_S256x8192_S8x256_1_1_0_0_n_n none l r (constant (F := Ideal) S8x256 .f32 0x00000000#32) (ix2 p q)
      = ∑ k : Fin 8192, l (ix2 p k) * r (ix2 q k) := by
  refine (Ideal.matmul_constant_zero_apply dot_S8x8192_S256x8192_S8x256_1_1_0_0_n_n none l r (ix2 p q)).trans ?_
  rw [← Equiv.sum_comp (contrEquiv1 dot_S8x8192_S256x8192_S8x256_1_1_0_0_n_n 8192 rfl rfl).symm]
  refine Finset.sum_congr rfl fun k _ => ?_
  rw [lhs_idx, rhs_idx]

/-- The bias row broadcast down the eight rows, at (p, q), is the row's entry q. -/
theorem bias_apply (bb : FVec Ideal S1x256 .f32) (p : Fin 8) (q : Fin 256) :
    broadcastTo S8x256 bb broadcasts_S1x256_S8x256 (ix2 p q) = bb (ix2 (0 : Fin 1) q) :=
  broadcastTo_apply bb broadcasts_S1x256_S8x256 (ix2 p q) (ix2 (0 : Fin 1) q) (fun a => by
    match a with
    | ⟨0, _⟩ => rfl
    | ⟨1, _⟩ => rfl)

/-- THE BODY AT AN INDEX: entry (p, q) of the stored block. -/
theorem payload_apply (xs : FVec Ideal S8x8192 .bf16) (wb : FVec Ideal S256x8192 .f32) (bb : FVec Ideal S1x256 .f32)
    (p : Fin 8) (q : Fin 256) :
    k0_pay1 (F := Ideal) xs wb bb (ix2 p q)
      = (∑ k : Fin 8192, xs (ix2 p k) * Ideal.sign (wb (ix2 q k))) + bb (ix2 (0 : Fin 1) q) := by
  unfold k0_pay1
  rw [shapeCast_self, shapeCast_self]
  refine congrArg₂ (· + ·) ?_ (bias_apply bb p q)
  refine (product_apply _ _ p q).trans ?_
  refine Finset.sum_congr rfl fun k _ => ?_
  exact congrArg (xs (ix2 p k) * ·) (Cert.TernaryGemv.ternary_apply wb natLt_1_32 bitsLt_bf16_f32 (ix2 q k))

end Cert.KernelIdeal.BodyValue

end
-- ==== Proof.BlockReads.lean ====
/-
  What the body finds in its three input blocks at grid point t (t < 32), in terms of the ARGUMENT arrays.
  Before the region the host takes sign(x) (then narrows it, which is the identity on the extended reals) and
  reshapes the bias [8192] to one row [1, 8192]. The activations' window is the whole array at every point; the
  weights' window at point t is rows 256·t … 256·t + 255; the bias row's window is columns 256·t … 256·t + 255; and
  the output's window is the same columns of all eight rows. A block's coordinate is always
  (block index) × (block size) + (coordinate inside the block).
-/
import proofs.«101646_j2465311228218_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.BlockReads

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The four index maps over the 32 grid points: activations fixed at block (0, 0); weights at row block t; the
    bias row and the output at column block t. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The activations' array as the region finds it: the sign of the argument, entry by entry. -/
theorem signed_input (c : Dev nD) :
    (V m c main_v1 : S8x8192.Idx → EReal)
      = fun i => Ideal.sign ((m ((c : Thread nD τ).loc main_arg0) : S8x8192.Idx → EReal) i) := by
  dsimp only [Gen.V, Gen.hostOps0]; after_results; rfl

/-- The bias as the region finds it: the argument reshaped to one row. -/
theorem bias_row (c : Dev nD) :
    (V m c main_v2 : S1x8192.Idx → EReal)
      = shapeCast S1x8192 (m ((c : Thread nD τ).loc main_arg2) : S8192.Idx → EReal) shapeCasts_S8192_S1x8192 := by
  dsimp only [Gen.V, Gen.hostOps0]; after_results; rfl

/-- The one-row reshape read at (0, r) is the vector's entry r. -/
theorem bias_row_apply (b : S8192.Idx → EReal) (j : S1x8192.Idx) (r : Fin 8192) (h0 : (j 0).val = 0) (h1 : (j 1).val = r.val) :
    shapeCast S1x8192 b shapeCasts_S8192_S1x8192 j = b (ix1 r) :=
  shapeCast_apply b shapeCasts_S8192_S1x8192 j (ix1 r) (by
    rw [Shape.rowMajor_val_one, Shape.rowMajor_val_two]
    show r.val = (j 0).val * 8192 + (j 1).val
    omega)

/-- Entry (p, k) of the activations' block at any point: the sign of x[p, k]. -/
theorem act_block (c : Dev nD) (t : Fin cfg0.N) (p : Fin 8) (k : Fin 8192) :
    (iblk m c 0 t : FVec Ideal S8x8192 .bf16) (ix2 p k)
      = Ideal.sign ((m ((c : Thread nD τ).loc main_arg0) : S8x8192.Idx → EReal) (ix2 p k)) := by
  obtain ⟨e0, e1, -⟩ := idx_facts t
  show V m c main_v1 (((cfg0.win 0).blk t).view.emb (ix2 p k)) = _
  rw [signed_input]
  refine congrArg (fun j => Ideal.sign ((m ((c : Thread nD τ).loc main_arg0) : S8x8192.Idx → EReal) j)) ?_
  funext a; apply Fin.ext
  match a with
  | ⟨0, _⟩ => show win0_0.index t (0 : Fin 2) * 8 + 1 * p.val = p.val; omega
  | ⟨1, _⟩ => show win0_0.index t (1 : Fin 2) * 8192 + 1 * k.val = k.val; omega

/-- Entry (q, k) of the weights' block at point t: w[256·t + q, k]. -/
theorem weight_block (c : Dev nD) (t : Fin cfg0.N) (q : Fin 256) (k : Fin 8192) (r : Fin 8192) (hr : r.val = t.val * 256 + q.val) :
    (iblk m c 1 t : FVec Ideal S256x8192 .f32) (ix2 q k)
      = (m ((c : Thread nD τ).loc main_arg1) : S8192x8192.Idx → EReal) (ix2 r k) := by
  obtain ⟨-, -, e0, e1, -⟩ := idx_facts t
  show V m c main_arg1 (((cfg0.win 1).blk t).view.emb (ix2 q k)) = _
  rw [V_main_arg1]
  refine congrArg (m ((c : Thread nD τ).loc main_arg1) : S8192x8192.Idx → EReal) ?_
  funext a; apply Fin.ext
  match a with
  | ⟨0, _⟩ => show win0_1.index t (0 : Fin 2) * 256 + 1 * q.val = r.val; omega
  | ⟨1, _⟩ => show win0_1.index t (1 : Fin 2) * 8192 + 1 * k.val = k.val; omega

/-- Entry (0, q) of the bias row's block at point t: b[256·t + q]. -/
theorem bias_block (c : Dev nD) (t : Fin cfg0.N) (q : Fin 256) (r : Fin 8192) (hr : r.val = t.val * 256 + q.val) :
    (iblk m c 2 t : FVec Ideal S1x256 .f32) (ix2 (0 : Fin 1) q)
      = (m ((c : Thread nD τ).loc main_arg2) : S8192.Idx → EReal) (ix1 r) := by
  obtain ⟨-, -, -, -, e0, e1, -⟩ := idx_facts t
  show V m c main_v2 (((cfg0.win 2).blk t).view.emb (ix2 (0 : Fin 1) q)) = _
  rw [bias_row]
  refine bias_row_apply _ _ r ?_ ?_
  · show win0_2.index t (0 : Fin 2) * 1 + 1 * (0 : Fin 1).val = 0; rw [e0]; rfl
  · show win0_2.index t (1 : Fin 2) * 256 + 1 * q.val = r.val; omega

/-- Entry (p, q) of the output's block at point t sits at (p, 256·t + q) of the result array. -/
theorem out_emb (t : Fin cfg0.N) (p : Fin 8) (q : Fin 256) (r : Fin 8192) (hr : r.val = t.val * 256 + q.val) :
    (((cfg0.win 3).blk t).view.emb (ix2 p q) : S8x8192.Idx) = ix2 p r := by
  obtain ⟨-, -, -, -, -, -, e0, e1⟩ := idx_facts t
  funext a; apply Fin.ext
  match a with
  | ⟨0, _⟩ => show win0_3.index t (0 : Fin 2) * 8 + 1 * p.val = p.val; omega
  | ⟨1, _⟩ => show win0_3.index t (1 : Fin 2) * 256 + 1 * q.val = r.val; omega

end Cert.KernelIdeal.BlockReads

end
-- ==== Proof.ArrayValue.lean ====
/-
  From blocks to the array. At grid point t the body writes back an 8 × 256 block; by the body's value at an
  index and the three block reads, that block is columns 256·t … 256·t + 255 of the specification of the ARGUMENT
  arrays: Σ_k sign(x[p, k]) · sign(w[256·t + q, k]) + b[256·t + q]. The 32 blocks tile the 8 × 8192 result (column
  o lies in block o / 256), so after the run the result array IS the specification.
-/
import proofs.«101646_j2465311228218_2_alg».proof.Proof.Gen.KernelIdeal.Value
import proofs.«101646_j2465311228218_2_alg».proof.Proof.TernarySpec
import proofs.«101646_j2465311228218_2_alg».proof.Proof.BodyValue
import proofs.«101646_j2465311228218_2_alg».proof.Proof.BlockReads

noncomputable section

namespace Cert.KernelIdeal.ArrayValue

open Cert.KernelIdeal Cert.KernelIdeal.Gen Cert.KernelIdeal.BlockReads Cert.KernelIdeal.BodyValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The specification of the three argument arrays as launched on core `c`. -/
abbrev spec (c : Dev nD) : S8x8192.Idx → EReal :=
  Cert.TernaryGemv.out (m ((c : Thread nD τ).loc main_arg0)) (m ((c : Thread nD τ).loc main_arg1)) (m ((c : Thread nD τ).loc main_arg2))

/-- WHAT POINT t WRITES BACK is block t of the specification. -/
theorem flushed_eq (c : Dev nD) (t : Fin cfg0.N) :
    (dats m 0 c).flushed 3 t = ((cfg0.win 3).blk t).view.read (Elt Ideal) (spec m c) := by
  have ht : t.val < 32 := lt_of_lt_of_eq t.isLt N_0
  rw [Cert.KernelIdeal.Value.flushed3]
  unfold out0_3
  rw [View.canon_unit_zero zero_offsets]
  simp only [View.ld_unit_zero (S := S8x8192) zero_offsets, View.ld_unit_zero (S := S256x8192) zero_offsets,
    View.ld_unit_zero (S := S1x256) zero_offsets]
  refine funext fun (y : S8x256.Idx) => ?_
  obtain ⟨p, q, rfl⟩ : ∃ (p : Fin 8) (q : Fin 256), y = ix2 p q := ⟨y 0, y 1, eq_ix2 y⟩
  show k0_pay1 (F := Ideal) (iblk m c 0 t) (iblk m c 1 t) (iblk m c 2 t) (ix2 p q)
    = spec m c (((cfg0.win 3).blk t).view.emb (ix2 p q))
  refine (payload_apply (iblk m c 0 t) (iblk m c 1 t) (iblk m c 2 t) p q).trans ?_
  obtain ⟨r, hr⟩ : ∃ r : Fin 8192, r.val = t.val * 256 + q.val := ⟨⟨t.val * 256 + q.val, by omega⟩, rfl⟩
  rw [out_emb t p q r hr]
  show _ = Cert.TernaryGemv.entry _ _ _ p r
  unfold Cert.TernaryGemv.entry
  refine congrArg₂ (· + ·) (Finset.sum_congr rfl fun k _ => ?_) (bias_block m c t q r hr)
  rw [act_block m c t p k, weight_block m c t q k r hr]

/-- An index of the result is in point t's block iff each coordinate is in the block's range on its axis. -/
theorem mem_blk (t : Fin cfg0.N) (i : S8x8192.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v3).slice (win0_3.rect t)).set ↔ _
  rw [View.set_slice_whole, Rect.mem_set_unit]
  exact Iff.rfl

/-- Every index (p, o) of the result is in the block of the point o / 256, and every point writes back. -/
theorem cover (i : S8x8192.Idx) : ∃ t : Fin cfg0.N, (cfg0.win 3).flush t = true ∧ i ∈ ((cfg0.win 3).blk t).view.set := by
  have hi0 : (i 0).val < 8 := (i 0).isLt
  have hi1 : (i 1).val < 8192 := (i 1).isLt
  obtain ⟨t, ht⟩ : ∃ t : Fin cfg0.N, t.val = (i 1).val / 256 :=
    ⟨⟨(i 1).val / 256, lt_of_lt_of_eq (by omega : (i 1).val / 256 < 32) N_0.symm⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 256 ≤ (i 1).val ∧ (i 1).val < win0_3.index t (1 : Fin 2) * 256 + 256; omega

/-- THE RESULT ARRAY after the run is the specification of the argument arrays. -/
theorem final (c : Dev nD) : (dats m 0 c).arrAt 3 cfg0.N = spec m c :=
  (dats m 0 c).arrAt_eq_of_cover 3 (spec m c) (fun t _ => flushed_eq m c t) cover

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.lean ====
/-
  The certificate of a ternary (sign-quantised) matrix–vector product with bias,
      out[p, o] = Σ_k sign(x[p, k]) · sign(w[o, k]) + b[o]      (x : 8 × 8192, w : 8192 × 8192, b : 8192),
  computed by a kernel over 32 grid points against a plain reference, equal on the extended reals.

  The kernel's program takes sign(x) on the host and reshapes b to a row; at grid point t its body reads all of
  sign(x), rows 256·t … 256·t + 255 of w and the matching 256 entries of b, forms the weights' signs as the
  difference of two comparison indicators [0 < w] − [w < 0], multiplies sign(x) against them (contracting the
  second axis of both, into a zero accumulator) and adds the bias row; the 8 × 256 result is columns
  256·t … 256·t + 255 of the output. The reference takes both signs directly, contracts the same axes in one
  product and adds the broadcast bias.

  The two agree term by term: [0 < a] − [a < 0] = sign a at every extended real (Proof/TernarySpec.lean), so the
  body's block at (p, q) is Σ_k sign(x[p, k]) · sign(w[256·t + q, k]) + b[256·t + q] (Proof/BodyValue.lean over the
  block reads of Proof/BlockReads.lean); the 32 blocks tile the result, which is therefore the specification
  (Proof/ArrayValue.lean); and the reference's six operations read at an index are the same sum
  (Proof/RefIsSpec.lean). No law that could fail at an infinity is used — only the sum's own terms are compared —
  so the finiteness of the inputs is never opened. The idealised kernel is the kernel's own text read on the
  extended reals (no rewrite was applied), so nothing is owed for it beyond `True`.
-/
import proofs.«101646_j2465311228218_2_alg».proof.Defs
import proofs.«101646_j2465311228218_2_alg».proof.Proof.Gen.Kernel
import proofs.«101646_j2465311228218_2_alg».proof.Proof.Gen.Kernel.Skeleton
import proofs.«101646_j2465311228218_2_alg».proof.Proof.Gen.Kernel.Launch
import proofs.«101646_j2465311228218_2_alg».proof.Proof.Gen.Kernel.Points
import proofs.«101646_j2465311228218_2_alg».proof.Proof.Gen.Kernel.Frame
import proofs.«101646_j2465311228218_2_alg».proof.Proof.Gen.KernelIdeal
import proofs.«101646_j2465311228218_2_alg».proof.Proof.Gen.KernelIdeal.Skeleton
import proofs.«101646_j2465311228218_2_alg».proof.Proof.Gen.KernelIdeal.Launch
import proofs.«101646_j2465311228218_2_alg».proof.Proof.Gen.KernelIdeal.Points
import proofs.«101646_j2465311228218_2_alg».proof.Proof.Gen.KernelIdeal.Frame
import proofs.«101646_j2465311228218_2_alg».proof.Proof.Gen.ReferenceIdeal
import proofs.«101646_j2465311228218_2_alg».proof.Proof.Gen.Pre_finite_inputs
import proofs.«101646_j2465311228218_2_alg».proof.Proof.Gen.KernelIdeal.Value
import proofs.«101646_j2465311228218_2_alg».proof.Proof.Gen.ReferenceIdeal.Run
import proofs.«101646_j2465311228218_2_alg».proof.Proof.Gen.ReferenceIdeal.Read
import proofs.«101646_j2465311228218_2_alg».proof.Proof.TernarySpec
import proofs.«101646_j2465311228218_2_alg».proof.Proof.RefIsSpec
import proofs.«101646_j2465311228218_2_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is six host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on x, w and b, the kernel's result array ends at the specification of its arguments
    and the reference's at the same function of its own: equal, entry by entry. -/
theorem algebraic : Cert.algebraic_KernelIdeal_ReferenceIdeal := by
  intro m ρ m' ρ' _ hagree
  refine ⟨fun c => Cert.KernelIdeal.ArrayValue.spec m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
